-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6x64x128 : Shape := ⟨3, ![6, 64, 128]⟩
abbrev S6x100000x128 : Shape := ⟨3, ![6, 100000, 128]⟩
abbrev S_ : Shape := ⟨0, ![]⟩

class Facts : Prop where
  bcast_S_S6x64x128 : S_.BroadcastsInDim S6x64x128 (![] : Fin 0 → Fin S6x64x128.rank)
  reducesTo_S6x64x128_S_d0_1_2 : S6x64x128.ReducesTo [0, 1, 2] S_
  h_S_ : 0 < S_.numel
  bcast_S_S6x100000x128 : S_.BroadcastsInDim S6x100000x128 (![] : Fin 0 → Fin S6x100000x128.rank)
  reducesTo_S6x100000x128_S_d0_1_2 : S6x100000x128.ReducesTo [0, 1, 2] S_

variable [Facts]

def fn {F : FTy → Type} [FloatOps F] (main_arg0 : FVec F S6x64x128 .f32) (main_arg1 : FVec F S6x100000x128 .f32) : IVec S_ 1 :=
  let main_v0 : FVec F S6x64x128 .f32 := Host.absf main_arg0
  let main_cst : FVec F S_ .f32 := constant S_ .f32 0x7F800000#32
  let main_v1 : FVec F S6x64x128 .f32 := broadcastInDim S6x64x128 ![] bcast_S_S6x64x128 main_cst
  let main_v2 : IVec S6x64x128 1 := cmpf .olt main_v0 main_v1
  let main_c : IVec S_ 1 := constantI S_ 1 1#1
  let main_v3 : IVec S_ 1 := (fun x v => Host.reduce IntOp.andi x v reducesTo_S6x64x128_S_d0_1_2 h_S_) main_v2 main_c
  let main_v4 : FVec F S6x100000x128 .f32 := Host.absf main_arg1
  let main_cst_0 : FVec F S_ .f32 := constant S_ .f32 0x7F800000#32
  let main_v5 : FVec F S6x100000x128 .f32 := broadcastInDim S6x100000x128 ![] bcast_S_S6x100000x128 main_cst_0
  let main_v6 : IVec S6x100000x128 1 := cmpf .olt main_v4 main_v5
  let main_c_1 : IVec S_ 1 := constantI S_ 1 1#1
  let main_v7 : IVec S_ 1 := (fun x v => Host.reduce IntOp.andi x v reducesTo_S6x100000x128_S_d0_1_2 h_S_) main_v6 main_c_1
  let main_v8 : IVec S_ 1 := andi main_v3 main_v7
  main_v8
-- ==== Kernel.lean ====
abbrev S6x64x128 : Shape := ⟨3, ![6, 64, 128]⟩
abbrev S6x100000x128 : Shape := ⟨3, ![6, 100000, 128]⟩
abbrev S6x64x100000 : Shape := ⟨3, ![6, 64, 100000]⟩
abbrev S1x64x128 : Shape := ⟨3, ![1, 64, 128]⟩
abbrev S1x33408x128 : Shape := ⟨3, ![1, 33408, 128]⟩
abbrev S1x64x33408 : Shape := ⟨3, ![1, 64, 33408]⟩
abbrev S64x128 : Shape := ⟨2, ![64, 128]⟩
abbrev S64 : Shape := ⟨1, ![64]⟩
abbrev S64x1 : Shape := ⟨2, ![64, 1]⟩
abbrev S33408x128 : Shape := ⟨2, ![33408, 128]⟩
abbrev S64x33408 : Shape := ⟨2, ![64, 33408]⟩

abbrev nBuf : Space → Nat
  | .hbm => 3
  | .vmem => 7
  | .smem => 0
  | _ => 0

abbrev bufTy : (tb : Table) → Fin (tcTables nBuf tb) → BufTy
  | .hbm, ⟨0, _⟩ => ⟨S6x64x128, .f32⟩
  | .hbm, ⟨1, _⟩ => ⟨S6x100000x128, .f32⟩
  | .hbm, ⟨2, _⟩ => ⟨S6x64x100000, .f32⟩
  | .local _ .vmem, ⟨0, _⟩ => ⟨S1x64x128, .f32⟩
  | .local _ .vmem, ⟨1, _⟩ => ⟨S1x64x128, .f32⟩
  | .local _ .vmem, ⟨2, _⟩ => ⟨S1x33408x128, .f32⟩
  | .local _ .vmem, ⟨3, _⟩ => ⟨S1x33408x128, .f32⟩
  | .local _ .vmem, ⟨4, _⟩ => ⟨S1x64x33408, .f32⟩
  | .local _ .vmem, ⟨5, _⟩ => ⟨S1x64x33408, .f32⟩
  | .local _ .vmem, ⟨6, _⟩ => ⟨S64x128, .bf16⟩
  | _, _ => ⟨S6x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x33408x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x33408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  reduces_S64x128_S64 : S64x128.Reduces [1] S64
  shapeCasts_S64_S64x1 : S64.ShapeCasts S64x1
  broadcasts_S64x1_S64x128 : S64x1.Broadcasts S64x128
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  packedbf16_S64x128_S64x128_0_0 : (Rect.unit (s := S64x128) ![0, 0] S64x128.size inb_S64x128_S64x128_0_0).PackedRows (EltTy.packing .bf16)
  inb_S1x33408x128_S1x33408x128_0_0_0 : ∀ a, (![0, 0, 0] : Fin 3 → Nat) a + S1x33408x128.size a ≤ S1x33408x128.size a
  h_S1x33408x128 : 0 < S1x33408x128.numel
  shapeCasts_S1x33408x128_S33408x128 : S1x33408x128.ShapeCasts S33408x128
  inb_S1x64x33408_S1x64x33408_0_0_0 : ∀ a, (![0, 0, 0] : Fin 3 → Nat) a + S1x64x33408.size a ≤ S1x64x33408.size a
  h_S1x64x33408 : 0 < S1x64x33408.numel
  shapeCasts_S1x64x33408_S64x33408 : S1x64x33408.ShapeCasts S64x33408
  shapeCasts_S64x33408_S1x64x33408 : S64x33408.ShapeCasts S1x64x33408
  dot_S64x128_S33408x128_S64x33408_1_1_0_0_n_n_wf : DotDims.WF S64x128 S33408x128 S64x33408 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128.size a ≤ S6x64x128.size a
  hwx0_0 : ∀ i : grid0.Coords, EltTy.bits .f32 = 32 ∨ (Rect.block (s := S6x64x128) S1x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1x33408x128.size a < S6x100000x128.size a
  hwx0_1 : ∀ i : grid0.Coords, EltTy.bits .f32 = 32 ∨ (Rect.unit (s := S6x100000x128) (fun a => cc0_transform_1 i a * S1x33408x128.size a) (fun a => (Pipeline.Clip.of (cc0_transform_1 i a) (S1x33408x128.size a) (S6x100000x128.size a)).extent (S1x33408x128.size a)) fun a => Pipeline.Clip.inb (Pipeline.Clip.ok_of (hstart0_1 i a))).WholeWords (EltTy.packing .f32)
  hwxs0_1 : ∀ i : grid0.Coords, EltTy.bits .f32 = 32 ∨ (Rect.unit (s := S1x33408x128) (fun _ => 0) (fun a => (Pipeline.Clip.of (cc0_transform_1 i a) (S1x33408x128.size a) (S6x100000x128.size a)).extent (S1x33408x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x64x33408.size a < S6x64x100000.size a
  hwx0_2 : ∀ i : grid0.Coords, EltTy.bits .f32 = 32 ∨ (Rect.unit (s := S6x64x100000) (fun a => cc0_transform_2 i a * S1x64x33408.size a) (fun a => (Pipeline.Clip.of (cc0_transform_2 i a) (S1x64x33408.size a) (S6x64x100000.size a)).extent (S1x64x33408.size a)) fun a => Pipeline.Clip.inb (Pipeline.Clip.ok_of (hstart0_2 i a))).WholeWords (EltTy.packing .f32)
  hwxs0_2 : ∀ i : grid0.Coords, EltTy.bits .f32 = 32 ∨ (Rect.unit (s := S1x64x33408) (fun _ => 0) (fun a => (Pipeline.Clip.of (cc0_transform_2 i a) (S1x64x33408.size a) (S6x64x100000.size a)).extent (S1x64x33408.size a)) fun a => (Nat.zero_add _).trans_le (Pipeline.Clip.extent_le (Pipeline.Clip.ok_of (hstart0_2 i a)))).WholeWords (EltTy.packing .f32)

variable [Facts₀]

def dot_S64x128_S33408x128_S64x33408_1_1_0_0_n_n : DotDims S64x128 S33408x128 S64x33408 where
  lhsContracting := [1]
  rhsContracting := [1]
  lhsNonContracting := [0]
  rhsNonContracting := [0]
  lhsBatch := []
  rhsBatch := []
  wf := dot_S64x128_S33408x128_S64x33408_1_1_0_0_n_n_wf

abbrev win0_0 : Pipeline.Window sig grid0 :=
  Pipeline.Window.ofSpec (Memref.whole main_arg0) S1x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S1x33408x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0) S1x64x33408.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S6x64x128 : Shape := ⟨3, ![6, 64, 128]⟩
abbrev S6x100000x128 : Shape := ⟨3, ![6, 100000, 128]⟩
abbrev S_ : Shape := ⟨0, ![]⟩
abbrev S6x64 : Shape := ⟨2, ![6, 64]⟩
abbrev S6x64x1 : Shape := ⟨3, ![6, 64, 1]⟩
abbrev S6x64x100000 : Shape := ⟨3, ![6, 64, 100000]⟩

abbrev nBuf : Space → Nat
  | .hbm => 14
  | .vmem => 0
  | .smem => 0
  | _ => 0

abbrev bufTy : (tb : Table) → Fin (tcTables nBuf tb) → BufTy
  | .hbm, ⟨0, _⟩ => ⟨S6x64x128, .f32⟩
  | .hbm, ⟨1, _⟩ => ⟨S6x100000x128, .f32⟩
  | .hbm, ⟨2, _⟩ => ⟨S6x64x128, .f32⟩
  | .hbm, ⟨3, _⟩ => ⟨S_, .f32⟩
  | .hbm, ⟨4, _⟩ => ⟨S6x64, .f32⟩
  | .hbm, ⟨5, _⟩ => ⟨S6x64x1, .f32⟩
  | .hbm, ⟨6, _⟩ => ⟨S6x64x1, .f32⟩
  | .hbm, ⟨7, _⟩ => ⟨S_, .f32⟩
  | .hbm, ⟨8, _⟩ => ⟨S_, .f32⟩
  | .hbm, ⟨9, _⟩ => ⟨S6x64x1, .f32⟩
  | .hbm, ⟨10, _⟩ => ⟨S6x64x1, .f32⟩
  | .hbm, ⟨11, _⟩ => ⟨S6x64x128, .f32⟩
  | .hbm, ⟨12, _⟩ => ⟨S6x64x128, .f32⟩
  | .hbm, ⟨13, _⟩ => ⟨S6x64x100000, .f32⟩
  | _, _ => ⟨S6x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_call1_v0 : Ref sig .tc := ⟨.hbm, 8, rfl⟩
abbrev main_call1_v1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩

abbrev nD : Nat := 1
abbrev τ : Topo := Topo.v7x

variable {F : FTy → Type} [FloatOps F]

class Facts₀ : Prop where
  reducesTo_S6x64x128_S6x64_d2 : S6x64x128.ReducesTo [2] S6x64
  h_S_ : 0 < S_.numel
  bcast_S6x64_S6x64x1_0_1 : S6x64.BroadcastsInDim S6x64x1 (![0, 1] : Fin 2 → Fin S6x64x1.rank)
  bcast_S_S6x64x1 : S_.BroadcastsInDim S6x64x1 (![] : Fin 0 → Fin S6x64x1.rank)
  bcast_S6x64x1_S6x64x128_0_1_2 : S6x64x1.BroadcastsInDim S6x64x128 (![0, 1, 2] : Fin 3 → Fin S6x64x128.rank)
  dot_S6x64x128_S6x100000x128_S6x64x100000_2_2_1_1_0_0_wf : DotDims.WF S6x64x128 S6x100000x128 S6x64x100000 [2] [2] [1] [1] [0] [0]

variable [Facts₀]

def dot_S6x64x128_S6x100000x128_S6x64x100000_2_2_1_1_0_0 : DotDims S6x64x128 S6x100000x128 S6x64x100000 where
  lhsContracting := [2]
  rhsContracting := [2]
  lhsNonContracting := [1]
  rhsNonContracting := [1]
  lhsBatch := [0]
  rhsBatch := [0]
  wf := dot_S6x64x128_S6x100000x128_S6x64x100000_2_2_1_1_0_0_wf

class Facts : Prop extends Facts₀ where

variable [Facts]
-- ==== Proof.BitsBody.lean ====
/-
  The kernel body as a pair of triples, for any float instance. The body runs once per grid point (part k, tile n). At a
  point of tile 0 it first overwrites its scratch with the part's feature block, each row divided by the larger of its
  Euclidean norm and a threshold (the payload `k0_pay1`); at every point it then stores into the output's staging buffer the
  product of the scratch with the memory tile's staging buffer, both read whole (the payload `k0_pay2`). So the scratch
  written at tile 0 is what the later tiles of the same part multiply by: the two triples below say what each buffer holds
  after the body in the two cases, as functions of what the buffers held before it.
-/
import proofs.«123891_g58102317581049_cont_9to1_m_374_11_alg».proof.Proof.Gen.Kernel.Frame
import proofs.«123891_g58102317581049_cont_9to1_m_374_11_alg».proof.Proof.Gen.Kernel.Skeleton
import Idealize.ShloMosaic.Lib.Pipeline.FrameBody
import Idealize.ShloMosaic.Lib.Pipeline.Value
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Facts₀ Facts

variable {F : FTy → Type} [FloatOps F]

local notation "𝕄" => MT nD τ sig Unit (Elt F) ℕ (UR sig nD τ) ℕ

/-- The body's one branch condition, from the grid coordinates: the inner grid coordinate is zero. -/
abbrev firstCol (i : grid0.Coords) : Prop :=
  (Scalar.cmpi .ne (Scalar.extui (Scalar.cmpi .eq (BitVec.ofNat 32 (i 1).val) 0#32)) 0#32) = 1#1

theorem hz3 : (![0, 0, 0] : Fin 3 → Nat) = fun _ => 0 := funext fun a => by fin_cases a <;> rfl
theorem hz2 : (![0, 0] : Fin 2 → Nat) = fun _ => 0 := funext fun a => by fin_cases a <;> rfl

/-- One store through the whole buffer covers it. -/
theorem cover_out (p0 : Vec F S1x64x33408 .f32) (y : S1x64x33408.Idx) :
    ∃ pc ∈ ([⟨Rect.unit (s := S1x64x33408) ![0, 0, 0] S1x64x33408.size Facts₀.inb_S1x64x33408_S1x64x33408_0_0_0, p0⟩] : List (View.Piece (Elt F) S1x64x33408 .f32)), y ∈ pc.1.set :=
  ⟨_, List.mem_singleton_self _, View.mem_set_unit_zero (S := S1x64x33408) hz3 Facts₀.inb_S1x64x33408_S1x64x33408_0_0_0 y⟩
theorem cover_scr (p0 : Vec F S64x128 .bf16) (y : S64x128.Idx) :
    ∃ pc ∈ ([⟨Rect.unit (s := S64x128) ![0, 0] S64x128.size Facts₀.inb_S64x128_S64x128_0_0, p0⟩] : List (View.Piece (Elt F) S64x128 .bf16)), y ∈ pc.1.set :=
  ⟨_, List.mem_singleton_self _, View.mem_set_unit_zero (S := S64x128) hz2 Facts₀.inb_S64x128_S64x128_0_0 y⟩

set_option maxHeartbeats 1000000 in
/-- At a point whose inner coordinate is NOT zero the body keeps the scratch (the normalized features some earlier
    point left there, `xs`) and stores into the output's buffer the product of the scratch with the memory block's
    buffer, both buffers read whole. -/
theorem sound_later (c : Dev nD) (E : Set ℕ) (i : grid0.Coords)
    (arg2 : Memref sig .tc .vmem S1x64x128 .f32) (harg2 : arg2.IsWhole)
    (arg3 : Memref sig .tc .vmem S1x33408x128 .f32) (harg3 : arg3.IsWhole)
    (arg4 : Memref sig .tc .vmem S1x64x33408 .f32) (harg4 : arg4.IsWhole)
    (arg5 : Memref sig .tc .vmem S64x128 .bf16) (harg5 : arg5.IsWhole) (hc : ¬firstCol i)
    (x0 : Vec F S1x64x128 .f32) (x1 : Vec F S1x33408x128 .f32) (xs : Vec F S64x128 .bf16) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k0_pay2 x1 xs) ∗ owns (c : Thread nD τ) arg5 fullShare xs) -∗ K ⟨⟩))
      ⊢ wp frame (wpE (defs₀ (F := F)) Variants.none c none) E (cc0__sim_body i arg2 harg2 arg3 harg3 arg4 harg4 arg5 harg5) K := by
  simp only [cc0__sim_body_eq_skeleton]; unfold cc0__sim_body_skel
  unfold owns
  iintro ⟨⟨%f0, %hf0, H0⟩, ⟨%f1, %hf1, H1⟩, ⟨%d4, %f4, -, H4⟩, ⟨%f5, %hf5, H5⟩, Hk⟩
  subst hf0 hf1 hf5
  sl_exec (disch := exact hc)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    refine (View.read_writes_eq_canon _ _ _ (cover_out _)).trans ?_
    refine (View.canon_unit_zero (S := S1x64x33408) hz3 _ _).trans ?_
    simp only [View.readAt_eq_ld, View.ld_unit_zero (S := S1x33408x128) hz3, View.ld_unit_zero (S := S64x128) hz2]
  · iexists f5; isplitr; · ipureintro; rfl
    iexact H5

set_option maxHeartbeats 1000000 in
/-- At a point whose inner coordinate IS zero the body first stores the features' block, each row divided by the larger of
    its Euclidean norm and the threshold, into the scratch (whatever it held), then stores into the output's buffer the
    product of that with the memory block's buffer. -/
theorem sound_first (c : Dev nD) (E : Set ℕ) (i : grid0.Coords)
    (arg2 : Memref sig .tc .vmem S1x64x128 .f32) (harg2 : arg2.IsWhole)
    (arg3 : Memref sig .tc .vmem S1x33408x128 .f32) (harg3 : arg3.IsWhole)
    (arg4 : Memref sig .tc .vmem S1x64x33408 .f32) (harg4 : arg4.IsWhole)
    (arg5 : Memref sig .tc .vmem S64x128 .bf16) (harg5 : arg5.IsWhole) (hc : firstCol i)
    (x0 : Vec F S1x64x128 .f32) (x1 : Vec F S1x33408x128 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k0_pay2 x1 (k0_pay1 x0)) ∗ owns (c : Thread nD τ) arg5 fullShare (k0_pay1 x0)) -∗ K ⟨⟩))
      ⊢ wp frame (wpE (defs₀ (F := F)) Variants.none c none) E (cc0__sim_body i arg2 harg2 arg3 harg3 arg4 harg4 arg5 harg5) K := by
  simp only [cc0__sim_body_eq_skeleton]; unfold cc0__sim_body_skel
  unfold owns
  iintro ⟨⟨%f0, %hf0, H0⟩, ⟨%f1, %hf1, H1⟩, ⟨%d4, %f4, -, H4⟩, ⟨%d5, %f5, -, H5⟩, Hk⟩
  subst hf0 hf1
  sl_exec (disch := exact hc)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_words
    refine (View.read_writes_eq_canon _ _ _ (cover_out _)).trans ?_
    refine (View.canon_unit_zero (S := S1x64x33408) hz3 _ _).trans ?_
    simp only [View.readAt_eq_ld, View.readCov_unit_zero (S := S64x128) _ hz2, View.ld_unit_zero (S := S1x33408x128) hz3, View.ld_unit_zero (S := S1x64x128) hz3]
  · iexists _; isplitr
    swap; · iexact H5
    ipureintro
    sl_unfold_words
    refine (View.read_writes_eq_canon _ _ _ (cover_scr _)).trans ?_
    refine (View.canon_unit_zero (S := S64x128) hz2 _ _).trans ?_
    simp only [View.readAt_eq_ld, View.ld_unit_zero (S := S1x64x128) hz3]

end Cert.Kernel.Body

end
-- ==== Proof.BitsFrame.lean ====
/-
  The frame of the word-level kernel: it runs to the end, faults nowhere, and leaves the features and the memory as launched.
  Nothing is said of the words it computes: the output's staging buffer is handed to the body at any contents and taken back
  at any contents, the scratch likewise (the class's plain invariant), and the two inputs' buffers come back as they were
  found — the features' block whole, the memory's block on the rows inside the array.
-/
import proofs.«123891_g58102317581049_cont_9to1_m_374_11_alg».proof.Proof.BitsBody
import Idealize.ShloMosaic.Lib.Pipeline.Frame
import Idealize.ShloMosaic.Lib.Pipeline.FrameBody
import Idealize.ShloMosaic.Lib.Tactic

set_option maxRecDepth 16384

noncomputable section

namespace Cert.Kernel.Run

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Facts₀ Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch, a whole scoped buffer of the kernel's own. -/
abbrev scM : Memref sig .tc .vmem S64x128 .bf16 := Memref.whole cc0_scratch0

/-- The output window is forgotten: nothing here reads what the kernel leaves in it. -/
def forgets : Fin 3 → Bool := fun | 0 => false | 1 => false | 2 => true | ⟨_ + 3, h⟩ => absurd h (Nat.not_lt.2 (Nat.le_add_left _ _))

/-- The proof data: the arrays as launched; after the body the features' buffer at its block and the memory's at its block
    (filled out past the array's end with words nothing reads); the output's buffer is not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Classical.arbitrary _) (iblk m c 1 t)
    | ⟨2, _⟩ => fun _ => Classical.arbitrary _
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) :
    (dats m 0 c).after 1 t = win0_1.fill (grid0.coords t) (fun _ => Classical.arbitrary _) (iblk m c 1 t) := by dsimp only [dats]

/-- The features' buffer holds its block at every point, fetched there or not. -/
theorem before_0 (c : Dev nD) (t : Fin cfg0.N) (d) : (dats m 0 c).before 0 t d = iblk m c 0 t :=
  before0_0_of m (dats m 0 c) (A_eq m c 0) (after_0 m c) t d
/-- The memory's buffer is fetched at every point: its block on the rows inside the array, `d` past them. -/
theorem before_1 (c : Dev nD) (t : Fin cfg0.N) (d) :
    (dats m 0 c).before 1 t d = win0_1.fill (grid0.coords t) d (iblk m c 1 t) := by
  unfold Dat.before; rw [if_pos (fetch0_1 t)]; rfl

theorem cut_after_1 (c : Dev nD) (t : Fin cfg0.N) : win0_1.cut (grid0.coords t) ((dats m 0 c).after 1 t) = iblk m c 1 t := by
  rw [after_1]; exact win0_1.cut_fill _ _ _

/-- The class's invariant, with the scratch as a memref owned at some contents. -/
theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

set_option maxHeartbeats 1000000 in
/-- The body obligation at every point, the output window forgotten: whichever branch the body takes, it hands the inputs'
    buffers back as found and the scratch and the output's buffer at some contents. -/
theorem body_obligation (c : Dev nD) : BodyObligationLoose (dats m 0 c) (defs₀ (F := F)) Variants.none () Set.univ forgets := fun t => by
  rw [bigSep_W0, bigSep_W0]
  simp only [forgets]
  rw [show (dats m 0 c).owesAt () t.succ = (dats m 0 c).owesAt () t.castSucc from rfl,
    show (dats m 0 c).Φ t.castSucc = Pipeline.ΦA spec0 c from rfl, show (dats m 0 c).Φ t.succ = Pipeline.ΦA spec0 c from rfl, PhiA_eq]
  iintro ⟨⟨⟨%X, HS⟩, Hr⟩, Ho, ⟨%d0, H0⟩, ⟨%d1, H1⟩, ⟨%d2, H2⟩⟩
  rw [before_0 m c t d0, before_1 m c t d1]
  by_cases hc : firstCol (grid0.coords t)
  · iapply (sound_first (F := F) c Set.univ (grid0.coords t) (win0_0.stage (cfg0.slots t 0)) (Facts₀.hstage0_0 ((cfg0.slots t 0).cast Facts₀.nbuf0_0))
      (win0_1.stage (cfg0.slots t 1)) (Facts₀.hstage0_1 ((cfg0.slots t 1).cast Facts₀.nbuf0_1)) (win0_2.stage (cfg0.slots t 2)) (Facts₀.hstage0_2 ((cfg0.slots t 2).cast Facts₀.nbuf0_2))
      (Memref.whole cc0_scratch0) (Memref.isWhole_whole _) hc (iblk m c 0 t) (win0_1.fill (grid0.coords t) d1 (iblk m c 1 t)) _)
    isplitl [H0]; · iexact H0
    isplitl [H1]; · iexact H1
    isplitl [H2]; · iexists _; iexact H2
    isplitl [HS]; · iexists _; iexact HS
    iintro ⟨H0, H1, H2, HS⟩
    isplitl [HS Hr]
    · isplitl [HS]
      · iexists _; iexact HS
      · iexact Hr
    isplitl [Ho]; · iexact Ho
    isplitl [H0]; · rw [after_0]; iexact H0
    isplitl [H1]
    · iexists d1
      change _ ⊢ owns (c : Thread nD τ) (stage0_1 (cfg0.slots t 1)) fullShare
        (win0_1.fill (grid0.coords t) d1 (win0_1.cut (grid0.coords t) ((dats m 0 c).after 1 t)))
      rw [cut_after_1]; try iexact H1
    · iexists _; iexact H2
  · iapply (sound_later (F := F) c Set.univ (grid0.coords t) (win0_0.stage (cfg0.slots t 0)) (Facts₀.hstage0_0 ((cfg0.slots t 0).cast Facts₀.nbuf0_0))
      (win0_1.stage (cfg0.slots t 1)) (Facts₀.hstage0_1 ((cfg0.slots t 1).cast Facts₀.nbuf0_1)) (win0_2.stage (cfg0.slots t 2)) (Facts₀.hstage0_2 ((cfg0.slots t 2).cast Facts₀.nbuf0_2))
      (Memref.whole cc0_scratch0) (Memref.isWhole_whole _) hc (iblk m c 0 t) (win0_1.fill (grid0.coords t) d1 (iblk m c 1 t)) X _)
    isplitl [H0]; · iexact H0
    isplitl [H1]; · iexact H1
    isplitl [H2]; · iexists _; iexact H2
    isplitl [HS]; · iexact HS
    iintro ⟨H0, H1, H2, HS⟩
    isplitl [HS Hr]
    · isplitl [HS]
      · iexists _; iexact HS
      · iexact Hr
    isplitl [Ho]; · iexact Ho
    isplitl [H0]; · rw [after_0]; iexact H0
    isplitl [H1]
    · iexists d1
      change _ ⊢ owns (c : Thread nD τ) (stage0_1 (cfg0.slots t 1)) fullShare
        (win0_1.fill (grid0.coords t) d1 (win0_1.cut (grid0.coords t) ((dats m 0 c).after 1 t)))
      rw [cut_after_1]; try iexact H1
    · iexists _; iexact H2

set_option backward.isDefEq.respectTransparency.types false in
/-- Every weakly fair execution of @main terminates, with every input array of the pipeline at its launch contents. -/
theorem run_main : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget) (hshare := fun c => ((dats m 0 c).toRForget forgets).share_full fun _ => rfl)
    (howed := fun _ _ => rfl) (V := V m) (hmain := hmain m Variants.none) (hA := A_eq m) (hΦ := fun _ _ => rfl)

/-- The frame: the two argument arrays end as launched (an input window's array is never written). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(Eq.mp (congrFun (((dats m 0 c).toRForget forgets).ArrAt_in 0 rfl _) _) ((h c).1 0)).trans ((A_eq m c 0).trans (V_main_arg0 m c)),
     (Eq.mp (congrFun (((dats m 0 c).toRForget forgets).ArrAt_in 1 rfl _) _) ((h c).1 1)).trans ((A_eq m c 1).trans (V_main_arg1 m c))⟩)
    (run_main m ρ)

end Cert.Kernel.Run

end
-- ==== Proof.IdealBody.lean ====
/-
  The kernel body as a pair of triples, for any float instance. The body runs once per grid point (part k, tile n). At a
  point of tile 0 it first overwrites its scratch with the part's feature block, each row divided by the larger of its
  Euclidean norm and a threshold (the payload `k0_pay1`); at every point it then stores into the output's staging buffer the
  product of the scratch with the memory tile's staging buffer, both read whole (the payload `k0_pay2`). So the scratch
  written at tile 0 is what the later tiles of the same part multiply by: the two triples below say what each buffer holds
  after the body in the two cases, as functions of what the buffers held before it.
-/
import proofs.«123891_g58102317581049_cont_9to1_m_374_11_alg».proof.Proof.Gen.KernelIdeal.Frame
import proofs.«123891_g58102317581049_cont_9to1_m_374_11_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Facts₀ Facts

variable {F : FTy → Type} [FloatOps F]

local notation "𝕄" => MT nD τ sig Unit (Elt F) ℕ (UR sig nD τ) ℕ

/-- The body's one branch condition, from the grid coordinates: the inner grid coordinate is zero. -/
abbrev firstCol (i : grid0.Coords) : Prop :=
  (Scalar.cmpi .ne (Scalar.extui (Scalar.cmpi .eq (BitVec.ofNat 32 (i 1).val) 0#32)) 0#32) = 1#1

theorem hz3 : (![0, 0, 0] : Fin 3 → Nat) = fun _ => 0 := funext fun a => by fin_cases a <;> rfl
theorem hz2 : (![0, 0] : Fin 2 → Nat) = fun _ => 0 := funext fun a => by fin_cases a <;> rfl

/-- One store through the whole buffer covers it. -/
theorem cover_out (p0 : Vec F S1x64x33408 .f32) (y : S1x64x33408.Idx) :
    ∃ pc ∈ ([⟨Rect.unit (s := S1x64x33408) ![0, 0, 0] S1x64x33408.size Facts₀.inb_S1x64x33408_S1x64x33408_0_0_0, p0⟩] : List (View.Piece (Elt F) S1x64x33408 .f32)), y ∈ pc.1.set :=
  ⟨_, List.mem_singleton_self _, View.mem_set_unit_zero (S := S1x64x33408) hz3 Facts₀.inb_S1x64x33408_S1x64x33408_0_0_0 y⟩
theorem cover_scr (p0 : Vec F S64x128 .bf16) (y : S64x128.Idx) :
    ∃ pc ∈ ([⟨Rect.unit (s := S64x128) ![0, 0] S64x128.size Facts₀.inb_S64x128_S64x128_0_0, p0⟩] : List (View.Piece (Elt F) S64x128 .bf16)), y ∈ pc.1.set :=
  ⟨_, List.mem_singleton_self _, View.mem_set_unit_zero (S := S64x128) hz2 Facts₀.inb_S64x128_S64x128_0_0 y⟩

set_option maxHeartbeats 1000000 in
/-- At a point whose inner coordinate is NOT zero the body keeps the scratch (the normalized features some earlier
    point left there, `xs`) and stores into the output's buffer the product of the scratch with the memory block's
    buffer, both buffers read whole. -/
theorem sound_later (c : Dev nD) (E : Set ℕ) (i : grid0.Coords)
    (arg2 : Memref sig .tc .vmem S1x64x128 .f32) (harg2 : arg2.IsWhole)
    (arg3 : Memref sig .tc .vmem S1x33408x128 .f32) (harg3 : arg3.IsWhole)
    (arg4 : Memref sig .tc .vmem S1x64x33408 .f32) (harg4 : arg4.IsWhole)
    (arg5 : Memref sig .tc .vmem S64x128 .bf16) (harg5 : arg5.IsWhole) (hc : ¬firstCol i)
    (x0 : Vec F S1x64x128 .f32) (x1 : Vec F S1x33408x128 .f32) (xs : Vec F S64x128 .bf16) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k0_pay2 x1 xs) ∗ owns (c : Thread nD τ) arg5 fullShare xs) -∗ K ⟨⟩))
      ⊢ wp frame (wpE (defs₀ (F := F)) Variants.none c none) E (cc0__sim_body i arg2 harg2 arg3 harg3 arg4 harg4 arg5 harg5) K := by
  simp only [cc0__sim_body_eq_skeleton]; unfold cc0__sim_body_skel
  unfold owns
  iintro ⟨⟨%f0, %hf0, H0⟩, ⟨%f1, %hf1, H1⟩, ⟨%d4, %f4, -, H4⟩, ⟨%f5, %hf5, H5⟩, Hk⟩
  subst hf0 hf1 hf5
  sl_exec (disch := exact hc)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    refine (View.read_writes_eq_canon _ _ _ (cover_out _)).trans ?_
    refine (View.canon_unit_zero (S := S1x64x33408) hz3 _ _).trans ?_
    simp only [View.readAt_eq_ld, View.ld_unit_zero (S := S1x33408x128) hz3, View.ld_unit_zero (S := S64x128) hz2]
  · iexists f5; isplitr; · ipureintro; rfl
    iexact H5

set_option maxHeartbeats 1000000 in
/-- At a point whose inner coordinate IS zero the body first stores the features' block, each row divided by the larger of
    its Euclidean norm and the threshold, into the scratch (whatever it held), then stores into the output's buffer the
    product of that with the memory block's buffer. -/
theorem sound_first (c : Dev nD) (E : Set ℕ) (i : grid0.Coords)
    (arg2 : Memref sig .tc .vmem S1x64x128 .f32) (harg2 : arg2.IsWhole)
    (arg3 : Memref sig .tc .vmem S1x33408x128 .f32) (harg3 : arg3.IsWhole)
    (arg4 : Memref sig .tc .vmem S1x64x33408 .f32) (harg4 : arg4.IsWhole)
    (arg5 : Memref sig .tc .vmem S64x128 .bf16) (harg5 : arg5.IsWhole) (hc : firstCol i)
    (x0 : Vec F S1x64x128 .f32) (x1 : Vec F S1x33408x128 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k0_pay2 x1 (k0_pay1 x0)) ∗ owns (c : Thread nD τ) arg5 fullShare (k0_pay1 x0)) -∗ K ⟨⟩))
      ⊢ wp frame (wpE (defs₀ (F := F)) Variants.none c none) E (cc0__sim_body i arg2 harg2 arg3 harg3 arg4 harg4 arg5 harg5) K := by
  simp only [cc0__sim_body_eq_skeleton]; unfold cc0__sim_body_skel
  unfold owns
  iintro ⟨⟨%f0, %hf0, H0⟩, ⟨%f1, %hf1, H1⟩, ⟨%d4, %f4, -, H4⟩, ⟨%d5, %f5, -, H5⟩, Hk⟩
  subst hf0 hf1
  sl_exec (disch := exact hc)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_words
    refine (View.read_writes_eq_canon _ _ _ (cover_out _)).trans ?_
    refine (View.canon_unit_zero (S := S1x64x33408) hz3 _ _).trans ?_
    simp only [View.readAt_eq_ld, View.readCov_unit_zero (S := S64x128) _ hz2, View.ld_unit_zero (S := S1x33408x128) hz3, View.ld_unit_zero (S := S1x64x128) hz3]
  · iexists _; isplitr
    swap; · iexact H5
    ipureintro
    sl_unfold_words
    refine (View.read_writes_eq_canon _ _ _ (cover_scr _)).trans ?_
    refine (View.canon_unit_zero (S := S64x128) hz2 _ _).trans ?_
    simp only [View.readAt_eq_ld, View.ld_unit_zero (S := S1x64x128) hz3]

end Cert.KernelIdeal.Body

end
-- ==== Proof.Spec.lean ====
/-
  The function both programs compute, on the extended reals. For a feature row `f` (128 entries) let
  `rowDiv f = max (√(Σ_d f_d²)) ε`: the row's Euclidean norm, or the threshold `ε` when the norm is smaller. The
  similarity of `f` with a memory row `r` is `Σ_d (f_d / rowDiv f) · r_d`, and the result at (k, b, n) is the similarity of
  row b of part k of the features with row n of part k of the memory.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The threshold: the binary32 value nearest 1e-12, as the extended real it denotes. -/
def eps : EReal := Ideal.ofBits .f32 0x2B8CBCCC#32

/-- A row's divisor: the larger of its Euclidean norm and the threshold. -/
def rowDiv (f : Fin 128 → EReal) : EReal := max (Ideal.sqrt (∑ d : Fin 128, f d * f d)) eps

/-- The similarity of a feature row with a memory row: the feature row divided by its divisor, dotted with the memory row. -/
def cosSim (f r : Fin 128 → EReal) : EReal := ∑ d : Fin 128, Ideal.div (f d) (rowDiv f) * r d

/-- The whole result: at (k, b, n) the similarity of feature row (k, b) with memory row (k, n). -/
def sim (x : (⟨3, ![6, 64, 128]⟩ : Shape).Idx → EReal) (y : (⟨3, ![6, 100000, 128]⟩ : Shape).Idx → EReal) :
    (⟨3, ![6, 64, 100000]⟩ : Shape).Idx → EReal :=
  fun i => cosSim (fun d => x (ix3 (i 0) (i 1) d)) (fun d => y (ix3 (i 0) (i 2) d))

end Cert.Spec

end
-- ==== Proof.PayloadMath.lean ====
/-
  The two values the kernel's body stores, read at one entry, on the extended reals.

  The similarities: entry (0, b, n) of the stored 1 × 64 × 33408 array is the sum over d of the normalized feature entry
  (b, d) times the memory entry (0, n, d).  The product starts from the zero accumulator, so nothing is added to the sum;
  narrowing the memory entries changes nothing on the extended reals; and the contraction runs over the second axis of
  both operands, so the left factor is read at (b, d) and the right one at (n, d).

  The normalized features: entry (b, d) of the stored 64 × 128 array is the feature entry (0, b, d) divided by the divisor
  of feature row b, the larger of the row's Euclidean norm and the threshold.
-/
import proofs.«123891_g58102317581049_cont_9to1_m_374_11_alg».proof.Proof.Gen.KernelIdeal.Skeleton
import proofs.«123891_g58102317581049_cont_9to1_m_374_11_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.PayloadMath

open Idealize.ShloMosaic Idealize.ShloMosaic.ValueIdx Idealize.SL.Sem Cert.KernelIdeal Cert.KernelIdeal.Gen

/-! ## The similarities -/

/-- The product's dimension numbers: both operands contract their second axis, and neither has a batch axis. -/
abbrev dotFM : DotDims S64x128 S33408x128 S64x33408 := dot_S64x128_S33408x128_S64x33408_1_1_0_0_n_n

/-- The left operand's row is the result's row. -/
theorem lhs_row (j : S64x33408.Idx) (q : dotFM.contr.Idx) : (dotFM.lhsIdx j q 0).val = (j 0).val := by
  unfold DotDims.lhsIdx
  rw [dif_neg (show ¬(0 : Fin S64x128.rank) ∈ dotFM.lhsBatch by decide),
    dif_pos (show (0 : Fin S64x128.rank) ∈ dotFM.lhsNonContracting by decide)]
  rfl

/-- The right operand's row is the result's column. -/
theorem rhs_row (j : S64x33408.Idx) (q : dotFM.contr.Idx) : (dotFM.rhsIdx j q 0).val = (j 1).val := by
  unfold DotDims.rhsIdx
  rw [dif_neg (show ¬(0 : Fin S33408x128.rank) ∈ dotFM.rhsBatch by decide),
    dif_pos (show (0 : Fin S33408x128.rank) ∈ dotFM.rhsNonContracting by decide)]
  rfl

/-- The left operand's column is the contraction position. -/
theorem lhs_col (j : S64x33408.Idx) (q : dotFM.contr.Idx) : (dotFM.lhsIdx j q 1).val = (q ⟨0, by decide⟩).val :=
  dotFM.lhsIdx_val_of_single rfl j q

/-- The right operand's column is the contraction position. -/
theorem rhs_col (j : S64x33408.Idx) (q : dotFM.contr.Idx) : (dotFM.rhsIdx j q 1).val = (q ⟨0, by decide⟩).val :=
  dotFM.rhsIdx_val_of_single rfl j q

/-- The stored similarities at (0, b, n): the sum over d of the normalized feature (b, d) times the memory entry (0, n, d). -/
theorem pay2_apply (v3 : Vec Ideal S1x33408x128 .f32) (v6 : Vec Ideal S64x128 .bf16) (b : Fin 64) (n : Fin 33408) :
    k0_pay2 (F := Ideal) v3 v6 (ix3 (0 : Fin 1) b n) = ∑ d : Fin 128, v6 (ix2 b d) * v3 (ix3 (0 : Fin 1) n d) := by
  unfold k0_pay2
  refine (shapeCast_ab_1ab_apply _ shapeCasts_S64x33408_S1x64x33408 0 b n).trans ?_
  refine (Ideal.matmul_constant_zero_apply dotFM none v6 _ (ix2 b n)).trans ?_
  rw [← Equiv.sum_comp (contrEquiv1 dotFM 128 rfl rfl).symm]
  refine Finset.sum_congr rfl fun k _ => ?_
  have hk := contrEquiv1_symm_val dotFM 128 rfl rfl k
  have el : dotFM.lhsIdx (ix2 b n) ((contrEquiv1 dotFM 128 rfl rfl).symm k) = ix2 b k := funext fun a => Fin.ext (by
    match a with
    | ⟨0, _⟩ => exact lhs_row _ _
    | ⟨1, _⟩ => exact (lhs_col _ _).trans hk)
  have er : dotFM.rhsIdx (ix2 b n) ((contrEquiv1 dotFM 128 rfl rfl).symm k) = ix2 n k := funext fun a => Fin.ext (by
    match a with
    | ⟨0, _⟩ => exact rhs_row _ _
    | ⟨1, _⟩ => exact (rhs_col _ _).trans hk)
  rw [el, er]
  exact congrArg (v6 (ix2 b k) * ·) (shapeCast_1ab_ab_apply v3 shapeCasts_S1x33408x128_S33408x128 n k)

/-! ## The normalized features -/

/-- The loaded 1 × 64 × 128 features as a 64 × 128 array. -/
abbrev feat (v11 : Vec Ideal S1x64x128 .f32) : FVec Ideal S64x128 .f32 :=
  shapeCast S64x128 v11 shapeCasts_S1x64x128_S64x128

/-- Its entry (b, d) is the feature entry (0, b, d). -/
theorem feat_apply (v11 : Vec Ideal S1x64x128 .f32) (b : Fin 64) (d : Fin 128) :
    feat v11 (ix2 b d) = v11 (ix3 (0 : Fin 1) b d) :=
  shapeCast_1ab_ab_apply v11 shapeCasts_S1x64x128_S64x128 b d

/-- The sum of squares of feature row b: the lane sum of the squared array at row b; it starts from the zero word, so
    nothing is added to the sum. -/
theorem sumsq_row (v11 : Vec Ideal S1x64x128 .f32) (b : Fin 64) :
    multiReduction (F := Ideal) .add [1] S64 (mulf (feat v11) (feat v11)) 0x00000000#32 reduces_S64x128_S64 (.inl rfl) rfl (ix1 b)
      = ∑ d : Fin 128, v11 (ix3 (0 : Fin 1) b d) * v11 (ix3 (0 : Fin 1) b d) := by
  refine (Ideal.multiReduction_add_single _ 0x00000000#32 reduces_S64x128_S64 (.inl rfl) rfl (ix1 b)).trans ?_
  refine Finset.sum_congr rfl fun (d : Fin 128) _ => ?_
  have e : reduces_S64x128_S64.lift (ix1 b) d = ix2 b d := funext fun ax => Fin.ext (by
    match ax with
    | ⟨0, _⟩ => rfl
    | ⟨1, _⟩ => rfl)
  rw [e]
  exact congrArg₂ (· * ·) (feat_apply v11 b d) (feat_apply v11 b d)

/-- The stored normalized feature at (b, d): the feature entry (0, b, d) divided by the divisor of feature row b. -/
theorem pay1_apply (v11 : Vec Ideal S1x64x128 .f32) (b : Fin 64) (d : Fin 128) :
    k0_pay1 (F := Ideal) v11 (ix2 b d)
      = Ideal.div (v11 (ix3 (0 : Fin 1) b d)) (Cert.Spec.rowDiv fun d' => v11 (ix3 (0 : Fin 1) b d')) := by
  unfold k0_pay1
  refine (congrFun (shapeCast_self _ shapeCasts_S64x128_S64x128) (ix2 b d)).trans ?_
  refine congrArg₂ Ideal.div (feat_apply v11 b d) ?_
  refine (broadcastTo_apply _ broadcasts_S64x1_S64x128 (ix2 b d) (ix2 b (0 : Fin 1)) fun ax => ?_).trans ?_
  · match ax with
    | ⟨0, _⟩ =>
      show b.val = if (64 : ℕ) = 1 then 0 else b.val
      rw [if_neg (by decide)]
    | ⟨1, _⟩ =>
      show 0 = if (1 : ℕ) = 1 then 0 else d.val
      rw [if_pos rfl]
  · refine congrArg (fun s => max (Ideal.sqrt s) (Ideal.ofBits .f32 0x2B8CBCCC#32)) ?_
    refine (shapeCast_apply _ shapeCasts_S64_S64x1 (ix2 b (0 : Fin 1)) (ix1 b) ?_).trans (sumsq_row v11 b)
    rw [Shape.rowMajor_val_one, Shape.rowMajor_val_two]
    show b.val = b.val * 1 + 0
    omega

end Cert.PayloadMath

end
-- ==== Proof.IdealBlocks.lean ====
/-
  Where the blocks of the three windows sit in their arrays.

  The grid has 6 × 3 points, run in row-major order: point t is part t / 3 and tile t % 3.  The features' block at t is
  part t / 3, whole.  The memory's block at t is rows 33408 · (t % 3) onward of part t / 3, and the result's block at t is
  columns 33408 · (t % 3) onward of part t / 3; both are 33408 wide except the last tile, which the array's end cuts to
  100000 − 2 · 33408 = 33184.  So an entry of a block sits in its array at the part t / 3, its own coordinate on the axes
  the block spans whole, and 33408 · (t % 3) plus its own coordinate on the tiled axis; and every entry (k, b, n) of the
  result lies in the block of point 3 · k + n / 33408.
-/
import proofs.«123891_g58102317581049_cont_9to1_m_374_11_alg».proof.Proof.Gen.KernelIdeal.Frame
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.ValueIdx
open Idealize.ShloMosaic.TcCoe Idealize.SL.Sem

/-! ## The block indices and the cut sizes, decided over the grid -/

/-- The features' block at point t: part t / 3, the one block of that part. -/
theorem index0 : ∀ t : Fin cfg0.N, win0_0.index t 0 = t.val / 3 ∧ win0_0.index t 1 = 0 ∧ win0_0.index t 2 = 0 :=
  (by decide +kernel : ∀ t : Fin grid0.N, win0_0.index t 0 = t.val / 3 ∧ win0_0.index t 1 = 0 ∧ win0_0.index t 2 = 0)

/-- The memory's block at point t: part t / 3, row tile t % 3. -/
theorem index1 : ∀ t : Fin cfg0.N, win0_1.index t 0 = t.val / 3 ∧ win0_1.index t 1 = t.val % 3 ∧ win0_1.index t 2 = 0 :=
  (by decide +kernel : ∀ t : Fin grid0.N, win0_1.index t 0 = t.val / 3 ∧ win0_1.index t 1 = t.val % 3 ∧ win0_1.index t 2 = 0)

/-- The result's block at point t: part t / 3, column tile t % 3. -/
theorem index2 : ∀ t : Fin cfg0.N, win0_2.index t 0 = t.val / 3 ∧ win0_2.index t 1 = 0 ∧ win0_2.index t 2 = t.val % 3 :=
  (by decide +kernel : ∀ t : Fin grid0.N, win0_2.index t 0 = t.val / 3 ∧ win0_2.index t 1 = 0 ∧ win0_2.index t 2 = t.val % 3)

/-- The features' blocks are never cut. -/
theorem xsize0 : ∀ t : Fin cfg0.N, win0_0.xsize (grid0.coords t) 0 = 1 ∧ win0_0.xsize (grid0.coords t) 1 = 64
    ∧ win0_0.xsize (grid0.coords t) 2 = 128 :=
  (by decide +kernel : ∀ t : Fin grid0.N, win0_0.xsize (grid0.coords t) 0 = 1 ∧ win0_0.xsize (grid0.coords t) 1 = 64
    ∧ win0_0.xsize (grid0.coords t) 2 = 128)

/-- The memory's block at point t has 33408 rows, but 33184 on the last row tile. -/
theorem xsize1 : ∀ t : Fin cfg0.N, win0_1.xsize (grid0.coords t) 0 = 1
    ∧ win0_1.xsize (grid0.coords t) 1 = (if t.val % 3 = 2 then 33184 else 33408) ∧ win0_1.xsize (grid0.coords t) 2 = 128 :=
  (by decide +kernel : ∀ t : Fin grid0.N, win0_1.xsize (grid0.coords t) 0 = 1
    ∧ win0_1.xsize (grid0.coords t) 1 = (if t.val % 3 = 2 then 33184 else 33408) ∧ win0_1.xsize (grid0.coords t) 2 = 128)

/-- The result's block at point t has 33408 columns, but 33184 on the last column tile. -/
theorem xsize2 : ∀ t : Fin cfg0.N, win0_2.xsize (grid0.coords t) 0 = 1 ∧ win0_2.xsize (grid0.coords t) 1 = 64
    ∧ win0_2.xsize (grid0.coords t) 2 = (if t.val % 3 = 2 then 33184 else 33408) :=
  (by decide +kernel : ∀ t : Fin grid0.N, win0_2.xsize (grid0.coords t) 0 = 1 ∧ win0_2.xsize (grid0.coords t) 1 = 64
    ∧ win0_2.xsize (grid0.coords t) 2 = (if t.val % 3 = 2 then 33184 else 33408))

/-- The result's block has as many columns as the memory's block has rows. -/
theorem xsize2_eq_xsize1 (t : Fin cfg0.N) : win0_2.xsize (grid0.coords t) 2 = win0_1.xsize (grid0.coords t) 1 :=
  (xsize2 t).2.2.trans (xsize1 t).2.1.symm

/-! ## Where an entry of a block sits in the array -/

/-- An entry j of the memory's block at point t sits at part t / 3, row 33408 · (t % 3) + j₁, column j₂; and j₀ = 0. -/
theorem emb1 (t : Fin cfg0.N) (j : ((cfg0.win 1).xblock (cfg0.grid.coords t)).Idx) :
    ((((cfg0.win 1).blk t).view.emb j : S6x100000x128.Idx) 0).val = t.val / 3
      ∧ ((((cfg0.win 1).blk t).view.emb j : S6x100000x128.Idx) 1).val = 33408 * (t.val % 3) + (j 1).val
      ∧ ((((cfg0.win 1).blk t).view.emb j : S6x100000x128.Idx) 2).val = (j 2).val
      ∧ (j 0).val = 0 := by
  have h := index1 t
  have hj0 : (j 0).val < win0_1.xsize (grid0.coords t) 0 := (j 0).isLt
  rw [(xsize1 t).1] at hj0
  refine ⟨?_, ?_, ?_, by omega⟩
  · show win0_1.index t 0 * 1 + 1 * (j 0).val = t.val / 3
    rw [h.1]; omega
  · show win0_1.index t 1 * 33408 + 1 * (j 1).val = 33408 * (t.val % 3) + (j 1).val
    rw [h.2.1]; omega
  · show win0_1.index t 2 * 128 + 1 * (j 2).val = (j 2).val
    rw [h.2.2]; omega

/-- An entry j of the result's block at point t sits at part t / 3, row j₁, column 33408 · (t % 3) + j₂; and j₀ = 0. -/
theorem emb2 (t : Fin cfg0.N) (j : ((cfg0.win 2).xblock (cfg0.grid.coords t)).Idx) :
    ((((cfg0.win 2).blk t).view.emb j : S6x64x100000.Idx) 0).val = t.val / 3
      ∧ ((((cfg0.win 2).blk t).view.emb j : S6x64x100000.Idx) 1).val = (j 1).val
      ∧ ((((cfg0.win 2).blk t).view.emb j : S6x64x100000.Idx) 2).val = 33408 * (t.val % 3) + (j 2).val
      ∧ (j 0).val = 0 := by
  have h := index2 t
  have hj0 : (j 0).val < win0_2.xsize (grid0.coords t) 0 := (j 0).isLt
  rw [(xsize2 t).1] at hj0
  refine ⟨?_, ?_, ?_, by omega⟩
  · show win0_2.index t 0 * 1 + 1 * (j 0).val = t.val / 3
    rw [h.1]; omega
  · show win0_2.index t 1 * 64 + 1 * (j 1).val = (j 1).val
    rw [h.2.1]; omega
  · show win0_2.index t 2 * 33408 + 1 * (j 2).val = 33408 * (t.val % 3) + (j 2).val
    rw [h.2.2]; omega

/-- An entry j of the features' block at point t sits at part t / 3, row j₁, column j₂; and j₀ = 0. -/
theorem emb0 (t : Fin cfg0.N) (j : ((cfg0.win 0).xblock (cfg0.grid.coords t)).Idx) :
    ((((cfg0.win 0).blk t).view.emb j : S6x64x128.Idx) 0).val = t.val / 3
      ∧ ((((cfg0.win 0).blk t).view.emb j : S6x64x128.Idx) 1).val = (j 1).val
      ∧ ((((cfg0.win 0).blk t).view.emb j : S6x64x128.Idx) 2).val = (j 2).val
      ∧ (j 0).val = 0 := by
  have h := index0 t
  have hj0 : (j 0).val < win0_0.xsize (grid0.coords t) 0 := (j 0).isLt
  rw [(xsize0 t).1] at hj0
  refine ⟨?_, ?_, ?_, by omega⟩
  · show win0_0.index t 0 * 1 + 1 * (j 0).val = t.val / 3
    rw [h.1]; omega
  · show win0_0.index t 1 * 64 + 1 * (j 1).val = (j 1).val
    rw [h.2.1]; omega
  · show win0_0.index t 2 * 128 + 1 * (j 2).val = (j 2).val
    rw [h.2.2]; omega

/-! ## A block read off its array, entry by entry -/

section
variable {F : FTy → Type} [FloatOps F] (m : (ℓ : Loc nD τ sig) → Buf (Elt F) ℓ)

/-- Window w's block at point t, at j, is w's array at the entry j sits at, carried along the equation between the
    array's element type and the block's. -/
theorem iblk_apply (c : Dev nD) (w : Fin cfg0.W) (t : Fin cfg0.N) (j : ((cfg0.win w).xblock (cfg0.grid.coords t)).Idx) :
    iblk m c w t j = _root_.cast (congrArg (Elt F) ((cfg0.win w).blk t).view.elt_eq)
      (V m c (Pipeline.arrRef spec0 w) (((cfg0.win w).blk t).view.emb j)) := rfl

/-- The features' block at point t, at j, is the features array at the entry j sits at. -/
theorem iblk0_apply (c : Dev nD) (t : Fin cfg0.N) (j : ((cfg0.win 0).xblock (cfg0.grid.coords t)).Idx) :
    iblk m c 0 t j = V m c (Pipeline.arrRef spec0 0) (((cfg0.win 0).blk t).view.emb j) := rfl

/-- The memory's block at point t, at j, is the memory array at the entry j sits at. -/
theorem iblk1_apply (c : Dev nD) (t : Fin cfg0.N) (j : ((cfg0.win 1).xblock (cfg0.grid.coords t)).Idx) :
    iblk m c 1 t j = V m c (Pipeline.arrRef spec0 1) (((cfg0.win 1).blk t).view.emb j) := rfl

/-- The result's block at point t, at j, is the result array at the entry j sits at. -/
theorem iblk2_apply (c : Dev nD) (t : Fin cfg0.N) (j : ((cfg0.win 2).xblock (cfg0.grid.coords t)).Idx) :
    iblk m c 2 t j = V m c (Pipeline.arrRef spec0 2) (((cfg0.win 2).blk t).view.emb j) := rfl

end

/-! ## The result's blocks cover the result -/

/-- Every entry (k, b, n) of the result lies in the block written back at point 3 · k + n / 33408. -/
theorem cover2 (i : S6x64x100000.Idx) :
    ∃ t : Fin cfg0.N, (cfg0.win 2).flush t = true ∧ i ∈ ((cfg0.win 2).blk t).view.set := by
  have h0 : (i 0).val < 6 := (i 0).isLt
  have h1 : (i 1).val < 64 := (i 1).isLt
  have h2 : (i 2).val < 100000 := (i 2).isLt
  obtain ⟨t, ht⟩ : ∃ t : Fin cfg0.N, t.val = 3 * (i 0).val + (i 2).val / 33408 :=
    ⟨⟨3 * (i 0).val + (i 2).val / 33408, by rw [show cfg0.N = 18 from N_0]; omega⟩, rfl⟩
  refine ⟨t, flush0_2 t, ?_⟩
  show i ∈ ((View.whole main_v0).slice (win0_2.rect t)).set
  rw [View.set_slice_whole, Rect.mem_set_unit]
  have hi := index2 t
  have hx := xsize2 t
  intro a
  match a with
  | ⟨0, _⟩ =>
    show win0_2.index t 0 * 1 ≤ (i 0).val ∧ (i 0).val < win0_2.index t 0 * 1 + win0_2.xsize (grid0.coords t) 0
    rw [hi.1, hx.1]; omega
  | ⟨1, _⟩ =>
    show win0_2.index t 1 * 64 ≤ (i 1).val ∧ (i 1).val < win0_2.index t 1 * 64 + win0_2.xsize (grid0.coords t) 1
    rw [hi.2.1, hx.2.1]; omega
  | ⟨2, _⟩ =>
    show win0_2.index t 2 * 33408 ≤ (i 2).val ∧ (i 2).val < win0_2.index t 2 * 33408 + win0_2.xsize (grid0.coords t) 2
    rw [hi.2.2, hx.2.2]
    split <;> omega

/-- The same, with the entry typed as an index of the result array's buffer on a core. -/
theorem cover2_loc (c : Dev nD) (i : ((cfg0.win 2).arr.view.loc (c.tc : Thread nD τ)).2.ty.Idx) :
    ∃ t : Fin cfg0.N, (cfg0.win 2).flush t = true ∧ i ∈ ((cfg0.win 2).blk t).view.set :=
  cover2 i

end Cert.KernelIdeal.Blocks

end
-- ==== Proof.IdealRun.lean ====
/-
  The idealized kernel's run, with its result named. The grid is six parts by three tiles, visited part by part. The scratch
  carries each part's normalized features from the part's first tile to its later ones, so the invariant between points says:
  unless the next point starts a part, the scratch holds the current part's features, each row divided by the larger of its
  Euclidean norm and the threshold. Every point stores, into the output's staging buffer, the product of the scratch with the
  memory tile's buffer. The last tile of a part overhangs the memory (100000 = 2 · 33408 + 33184 rows), so the buffer's tail
  holds words nothing names; an output column inside the array reads only the memory's own row, so on those columns the
  stored product is the block of the specified similarity `G`, and the write-backs, which move exactly those columns, piece
  `G` together over the whole result array.
-/
import proofs.«123891_g58102317581049_cont_9to1_m_374_11_alg».proof.Proof.IdealBody
import proofs.«123891_g58102317581049_cont_9to1_m_374_11_alg».proof.Proof.PayloadMath
import proofs.«123891_g58102317581049_cont_9to1_m_374_11_alg».proof.Proof.Spec
import proofs.«123891_g58102317581049_cont_9to1_m_374_11_alg».proof.Proof.IdealBlocks
import Idealize.ShloMosaic.Lib.Pipeline.Frame
import Idealize.ShloMosaic.Lib.Pipeline.FrameBody
import Idealize.ShloMosaic.Lib.Pipeline.Value
import Idealize.ShloMosaic.Lib.ValueIdx
import Idealize.ShloMosaic.Lib.Tactic

set_option maxRecDepth 16384

noncomputable section

namespace Cert.KernelIdeal.Run

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Facts₀ Facts

local notation "𝕄" => MT nD τ sig Unit (Elt Ideal) ℕ (UR sig nD τ) ℕ

variable (m : (ℓ : Loc nD τ sig) → Buf (Elt Ideal) ℓ) (ρ : Dev nD → PrngReg)

/-- The result both programs are shown to end with, on core `c`: the similarities of the launch-time features and memory. -/
def G (c : Dev nD) : Buf (Elt Ideal) ((c : Thread nD τ).loc main_v0) :=
  Cert.Spec.sim (m ((c : Thread nD τ).loc main_arg0)) (m ((c : Thread nD τ).loc main_arg1))

/-- The normalized features of part `k`: what the scratch holds while the tiles of part `k` are multiplied. -/
def unitRows (c : Dev nD) (k : Fin 6) : Vec Ideal S64x128 .bf16 :=
  k0_pay1 (F := Ideal) (fun j : S1x64x128.Idx => m ((c : Thread nD τ).loc main_arg0) (ix3 k (j 1) (j 2)))

/-- The part a position of the grid's row-major order lies in (three tiles per part). -/
def partAt (p : Nat) : Fin 6 := ⟨p / 3 % 6, Nat.mod_lt _ (by decide)⟩

/-- The scratch, a whole scoped buffer of the kernel's own. -/
abbrev scM : Memref sig .tc .vmem S64x128 .bf16 := Memref.whole cc0_scratch0

/-- The invariant before position `p`: the scratch holds something, and when `p` is not the first tile of a part it holds that
    part's normalized features; beside it the generator register, which the body never touches. -/
def PhiS (c : Dev nD) (p : Fin (cfg0.N + 1)) : sProp 𝕄 :=
  iprop((∃ X, ⌜p.val % 3 ≠ 0 → X = unitRows m c (partAt p.val)⌝ ∗ owns (c : Thread nD τ) scM fullShare X) ∗ (∃ r, prngReg c r))

/-- The proof data: the arrays as launched; after the body the features' buffer still at its block, the memory's at its block
    (filled out past the array's end with zeros nothing reads), the output's at the block of `G` (filled out likewise). -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0 : EReal)) (iblk m c 1 t)
    | ⟨2, _⟩ => win0_2.fill (grid0.coords t) (fun _ => (0 : EReal)) ((win0_2.blk t).view.read (Elt Ideal) (G m c))
  Φ p := PhiS m c p
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) :
    (dats m 0 c).after 1 t = win0_1.fill (grid0.coords t) (fun _ => (0 : EReal)) (iblk m c 1 t) := by dsimp only [dats]
theorem after_2 (c : Dev nD) (t : Fin cfg0.N) :
    (dats m 0 c).after 2 t = win0_2.fill (grid0.coords t) (fun _ => (0 : EReal)) ((win0_2.blk t).view.read (Elt Ideal) (G m c)) := by
  dsimp only [dats]

/-- The features' buffer holds its block at every point, fetched there or not. -/
theorem before_0 (c : Dev nD) (t : Fin cfg0.N) (d) : (dats m 0 c).before 0 t d = iblk m c 0 t :=
  before0_0_of m (dats m 0 c) (A_eq m c 0) (after_0 m c) t d
/-- The memory's buffer is fetched at every point: its block on the rows inside the array, `d` past them. -/
theorem before_1 (c : Dev nD) (t : Fin cfg0.N) (d) :
    (dats m 0 c).before 1 t d = win0_1.fill (grid0.coords t) d (iblk m c 1 t) := by
  unfold Dat.before; rw [if_pos (fetch0_1 t)]; rfl

/-- The body's branch condition over the grid: it holds exactly at the first tile of each part. -/
theorem hfirst : ∀ t : Fin cfg0.N, firstCol (grid0.coords t) ↔ t.val % 3 = 0 :=
  (by decide +kernel : ∀ t : Fin grid0.N, firstCol (grid0.coords t) ↔ t.val % 3 = 0)

/-- Positions `p` and `p + 1` lie in one part unless `p + 1` starts a part. -/
theorem partAt_succ (p : Nat) (h : (p + 1) % 3 ≠ 0) : partAt (p + 1) = partAt p := by
  unfold partAt; apply Fin.ext
  show (p + 1) / 3 % 6 = p / 3 % 6
  have e : (p + 1) / 3 = p / 3 := by omega
  rw [e]

/-- A grid point lies below 18. -/
theorem lt18 (t : Fin cfg0.N) : t.val < 18 := by
  have h := t.isLt
  have e : cfg0.N = 18 := N_0
  omega

/-- The features' block at a point of part k is part k of the features: rows and columns as they are. -/
theorem iblk0_eq (c : Dev nD) (t : Fin cfg0.N) :
    (iblk m c 0 t : S1x64x128.Idx → EReal)
      = fun j : S1x64x128.Idx => m ((c : Thread nD τ).loc main_arg0) (ix3 (partAt t.val) (j 1) (j 2)) := by
  funext j
  obtain ⟨h0, h1, h2, -⟩ := Blocks.emb0 t j
  have h18 := lt18 t
  refine (Blocks.iblk0_apply m c t j).trans ?_
  show m ((c : Thread nD τ).loc main_arg0) (((cfg0.win 0).blk t).view.emb j) = _
  refine congrArg (m ((c : Thread nD τ).loc main_arg0)) (funext fun a => Fin.ext ?_)
  match a with
  | ⟨0, _⟩ =>
    refine h0.trans ?_
    show t.val / 3 = t.val / 3 % 6
    omega
  | ⟨1, _⟩ => exact h1
  | ⟨2, _⟩ => exact h2

/-- So what a first tile writes into the scratch is the part's normalized features. -/
theorem unit_eq (c : Dev nD) (t : Fin cfg0.N) : k0_pay1 (F := Ideal) (iblk m c 0 t) = unitRows m c (partAt t.val) := by
  unfold unitRows
  exact congrArg (k0_pay1 (F := Ideal)) (iblk0_eq m c t)

/-- The output's buffer after the body, on the columns inside the array, is the block of `G`: entry (b, n) of the product is
    the sum over d of the normalized feature (b, d) times the memory entry (n, d) of the tile, and a column n inside the
    array reads the memory's own row, whatever the buffer holds past the array's end (`d1`). -/
theorem out_block (c : Dev nD) (t : Fin cfg0.N) (d1 : S1x33408x128.Idx → EReal) :
    win0_2.cut (grid0.coords t) (k0_pay2 (F := Ideal) (win0_1.fill (grid0.coords t) d1 (iblk m c 1 t)) (unitRows m c (partAt t.val)))
      = (win0_2.blk t).view.read (Elt Ideal) (G m c) := by
  funext j
  obtain ⟨e0, e1, e2, ej0⟩ := Blocks.emb2 t j
  obtain ⟨x20, x21, x22⟩ := Blocks.xsize2 t
  obtain ⟨x10, x11, x12⟩ := Blocks.xsize1 t
  have hx := Blocks.xsize2_eq_xsize1 t
  have h18 := lt18 t
  have hj1 : (j 1).val < win0_2.xsize (grid0.coords t) 1 := (j 1).isLt
  have hj2 : (j 2).val < win0_2.xsize (grid0.coords t) 2 := (j 2).isLt
  have hle : win0_2.xsize (grid0.coords t) 2 ≤ 33408 := win0_2.xsize_le (grid0.coords t) 2
  have hb : (j 1).val < 64 := by omega
  have hn : (j 2).val < 33408 := by omega
  have hxj : win0_2.xinj (grid0.coords t) j = ix3 (0 : Fin 1) (⟨(j 1).val, hb⟩ : Fin 64) (⟨(j 2).val, hn⟩ : Fin 33408) :=
    funext fun a => Fin.ext (by
      match a with
      | ⟨0, _⟩ => exact ej0
      | ⟨1, _⟩ => rfl
      | ⟨2, _⟩ => rfl)
  show k0_pay2 (F := Ideal) (win0_1.fill (grid0.coords t) d1 (iblk m c 1 t)) (unitRows m c (partAt t.val)) (win0_2.xinj (grid0.coords t) j)
    = G m c ((win0_2.blk t).view.emb j)
  rw [hxj, Cert.PayloadMath.pay2_apply]
  show _ = ∑ d : Fin 128, Ideal.div (m ((c : Thread nD τ).loc main_arg0) (ix3 (((win0_2.blk t).view.emb j) 0) (((win0_2.blk t).view.emb j) 1) d))
      (Cert.Spec.rowDiv fun d' => m ((c : Thread nD τ).loc main_arg0) (ix3 (((win0_2.blk t).view.emb j) 0) (((win0_2.blk t).view.emb j) 1) d'))
    * m ((c : Thread nD τ).loc main_arg1) (ix3 (((win0_2.blk t).view.emb j) 0) (((win0_2.blk t).view.emb j) 2) d)
  have hk : partAt t.val = ((win0_2.blk t).view.emb j) 0 := Fin.ext (by
    refine Eq.trans ?_ e0.symm
    show t.val / 3 % 6 = t.val / 3
    omega)
  have hb' : (⟨(j 1).val, hb⟩ : Fin 64) = ((win0_2.blk t).view.emb j) 1 := Fin.ext e1.symm
  refine Finset.sum_congr rfl fun d _ => ?_
  refine congrArg₂ (· * ·) ?_ ?_
  · unfold unitRows
    rw [Cert.PayloadMath.pay1_apply]
    show Ideal.div (m ((c : Thread nD τ).loc main_arg0) (ix3 (partAt t.val) (⟨(j 1).val, hb⟩ : Fin 64) d))
        (Cert.Spec.rowDiv fun d' => m ((c : Thread nD τ).loc main_arg0) (ix3 (partAt t.val) (⟨(j 1).val, hb⟩ : Fin 64) d')) = _
    rw [hk, hb']
  · have hmv : win0_1.moved (grid0.coords t) (ix3 (0 : Fin 1) (⟨(j 2).val, hn⟩ : Fin 33408) d) = true :=
      (win0_1.moved_iff (grid0.coords t) _).mpr fun a => by
        match a with
        | ⟨0, _⟩ => show 0 < win0_1.xsize (grid0.coords t) 0; omega
        | ⟨1, _⟩ => show (j 2).val < win0_1.xsize (grid0.coords t) 1; omega
        | ⟨2, _⟩ => show d.val < win0_1.xsize (grid0.coords t) 2; have := d.isLt; omega
    unfold Window.fill
    rw [dif_pos hmv]
    refine (Blocks.iblk1_apply m c t _).trans ?_
    show m ((c : Thread nD τ).loc main_arg1) _ = _
    refine congrArg (m ((c : Thread nD τ).loc main_arg1)) (funext fun a => Fin.ext ?_)
    obtain ⟨f0, f1, f2, -⟩ := Blocks.emb1 t (fun a => ⟨((ix3 (0 : Fin 1) (⟨(j 2).val, hn⟩ : Fin 33408) d) a).val, (win0_1.moved_iff (grid0.coords t) _).mp hmv a⟩)
    match a with
    | ⟨0, _⟩ => exact f0.trans e0.symm
    | ⟨1, _⟩ => exact f1.trans e2.symm
    | ⟨2, _⟩ => exact f2

theorem cut_after_1 (c : Dev nD) (t : Fin cfg0.N) : win0_1.cut (grid0.coords t) ((dats m 0 c).after 1 t) = iblk m c 1 t := by
  rw [after_1]; exact win0_1.cut_fill _ _ _
theorem cut_after_2 (c : Dev nD) (t : Fin cfg0.N) :
    win0_2.cut (grid0.coords t) ((dats m 0 c).after 2 t) = (win0_2.blk t).view.read (Elt Ideal) (G m c) := by
  rw [after_2]; exact win0_2.cut_fill _ _ _

set_option maxHeartbeats 1000000 in
/-- The body obligation at every point. At a first tile the scratch is overwritten with the part's normalized features; at
    a later tile it already holds them (the invariant); either way the output's buffer ends, on the columns inside the
    array, at the block of `G`. -/
theorem body_obligation (c : Dev nD) : BodyObligationLoose (dats m 0 c) (defs₀ (F := Ideal)) Variants.none () Set.univ := fun t => by
  rw [bigSep_W0, bigSep_W0]
  simp only
  rw [show (dats m 0 c).owesAt () t.succ = (dats m 0 c).owesAt () t.castSucc from rfl,
    show (dats m 0 c).Φ t.castSucc = PhiS m c t.castSucc from rfl, show (dats m 0 c).Φ t.succ = PhiS m c t.succ from rfl]
  unfold PhiS
  iintro ⟨⟨⟨%X, %hX, HS⟩, Hr⟩, Ho, ⟨%d0, H0⟩, ⟨%d1, H1⟩, ⟨%d2, H2⟩⟩
  rw [before_0 m c t d0, before_1 m c t d1]
  by_cases hc : firstCol (grid0.coords t)
  · iapply (sound_first (F := Ideal) c Set.univ (grid0.coords t) (win0_0.stage (cfg0.slots t 0)) (Facts₀.hstage0_0 ((cfg0.slots t 0).cast Facts₀.nbuf0_0))
      (win0_1.stage (cfg0.slots t 1)) (Facts₀.hstage0_1 ((cfg0.slots t 1).cast Facts₀.nbuf0_1)) (win0_2.stage (cfg0.slots t 2)) (Facts₀.hstage0_2 ((cfg0.slots t 2).cast Facts₀.nbuf0_2))
      (Memref.whole cc0_scratch0) (Memref.isWhole_whole _) hc (iblk m c 0 t) (win0_1.fill (grid0.coords t) d1 (iblk m c 1 t)) _)
    isplitl [H0]; · iexact H0
    isplitl [H1]; · iexact H1
    isplitl [H2]; · iexists _; iexact H2
    isplitl [HS]; · iexists _; iexact HS
    iintro ⟨H0, H1, H2, HS⟩
    isplitl [HS Hr]
    · isplitl [HS]
      · iexists _; isplitr
        · ipureintro; intro h
          have h' : (t.val + 1) % 3 ≠ 0 := h
          show k0_pay1 (F := Ideal) (iblk m c 0 t) = unitRows m c (partAt (t.val + 1))
          rw [unit_eq m c t, partAt_succ t.val h']
        · iexact HS
      · iexact Hr
    isplitl [Ho]; · iexact Ho
    isplitl [H0]; · rw [after_0]; iexact H0
    isplitl [H1]
    · iexists d1
      change _ ⊢ owns (c : Thread nD τ) (stage0_1 (cfg0.slots t 1)) fullShare
        (win0_1.fill (grid0.coords t) d1 (win0_1.cut (grid0.coords t) ((dats m 0 c).after 1 t)))
      rw [cut_after_1]; try iexact H1
    · iexists (k0_pay2 (F := Ideal) (win0_1.fill (grid0.coords t) d1 (iblk m c 1 t)) (k0_pay1 (F := Ideal) (iblk m c 0 t)))
      change _ ⊢ owns (c : Thread nD τ) (stage0_2 (cfg0.slots t 2)) fullShare
        (win0_2.fill (grid0.coords t) (k0_pay2 (F := Ideal) (win0_1.fill (grid0.coords t) d1 (iblk m c 1 t)) (k0_pay1 (F := Ideal) (iblk m c 0 t)))
          (win0_2.cut (grid0.coords t) ((dats m 0 c).after 2 t)))
      rw [cut_after_2, ← out_block m c t d1, ← unit_eq m c t, win0_2.fill_cut]; try iexact H2
  · have h3 : t.val % 3 ≠ 0 := fun h => hc ((hfirst t).mpr h)
    obtain rfl : X = unitRows m c (partAt t.val) := hX h3
    iapply (sound_later (F := Ideal) c Set.univ (grid0.coords t) (win0_0.stage (cfg0.slots t 0)) (Facts₀.hstage0_0 ((cfg0.slots t 0).cast Facts₀.nbuf0_0))
      (win0_1.stage (cfg0.slots t 1)) (Facts₀.hstage0_1 ((cfg0.slots t 1).cast Facts₀.nbuf0_1)) (win0_2.stage (cfg0.slots t 2)) (Facts₀.hstage0_2 ((cfg0.slots t 2).cast Facts₀.nbuf0_2))
      (Memref.whole cc0_scratch0) (Memref.isWhole_whole _) hc (iblk m c 0 t) (win0_1.fill (grid0.coords t) d1 (iblk m c 1 t)) (unitRows m c (partAt t.val)) _)
    isplitl [H0]; · iexact H0
    isplitl [H1]; · iexact H1
    isplitl [H2]; · iexists _; iexact H2
    isplitl [HS]; · iexact HS
    iintro ⟨H0, H1, H2, HS⟩
    isplitl [HS Hr]
    · isplitl [HS]
      · iexists _; isplitr
        · ipureintro; intro h
          have h' : (t.val + 1) % 3 ≠ 0 := h
          show unitRows m c (partAt t.val) = unitRows m c (partAt (t.val + 1))
          rw [partAt_succ t.val h']
        · iexact HS
      · iexact Hr
    isplitl [Ho]; · iexact Ho
    isplitl [H0]; · rw [after_0]; iexact H0
    isplitl [H1]
    · iexists d1
      change _ ⊢ owns (c : Thread nD τ) (stage0_1 (cfg0.slots t 1)) fullShare
        (win0_1.fill (grid0.coords t) d1 (win0_1.cut (grid0.coords t) ((dats m 0 c).after 1 t)))
      rw [cut_after_1]; try iexact H1
    · iexists (k0_pay2 (F := Ideal) (win0_1.fill (grid0.coords t) d1 (iblk m c 1 t)) (unitRows m c (partAt t.val)))
      change _ ⊢ owns (c : Thread nD τ) (stage0_2 (cfg0.slots t 2)) fullShare
        (win0_2.fill (grid0.coords t) (k0_pay2 (F := Ideal) (win0_1.fill (grid0.coords t) d1 (iblk m c 1 t)) (unitRows m c (partAt t.val)))
          (win0_2.cut (grid0.coords t) ((dats m 0 c).after 2 t)))
      rw [cut_after_2, ← out_block m c t d1, win0_2.fill_cut]; try iexact H2

/-! ## The launch -/

/-- The class's invariant, with the scratch as a memref owned at some contents. -/
theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- Before the first point the scratch holds anything: position 0 starts a part, so the invariant asks nothing of it. -/
theorem hin (c : Dev nD) : Pipeline.ΦA spec0 c ⊢ (dats m 0 c).Φ 0 := by
  rw [PhiA_eq, show (dats m 0 c).Φ 0 = PhiS m c 0 from rfl]
  unfold PhiS
  iintro ⟨⟨%d, H⟩, Hr⟩
  isplitl [H]
  · iexists d; isplitr
    · ipureintro; intro h; exact absurd rfl h
    · iexact H
  · iexact Hr

/-- After the last point what the scratch holds is forgotten. -/
theorem hout (c : Dev nD) : (dats m 0 c).Φ (Fin.last cfg0.N) ⊢ Pipeline.ΦA spec0 c := by
  rw [PhiA_eq, show (dats m 0 c).Φ (Fin.last cfg0.N) = PhiS m c (Fin.last cfg0.N) from rfl]
  unfold PhiS
  iintro ⟨⟨%X, -, H⟩, Hr⟩
  isplitl [H]
  · iexists X; iexact H
  · iexact Hr

set_option backward.isDefEq.respectTransparency.types false in
/-- Every weakly fair execution of @main terminates, and every array of the pipeline ends at what the proof data compute. -/
theorem run_main : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hin := hin m) (hout := hout m)

/-- The result array after the run: every write-back writes its block of `G`, and the blocks cover the array (the last tile
    of each part is cut at the array's end), so the array ends holding `G`. -/
theorem final_out (c : Dev nD) : (dats m 0 c).arrAt 2 cfg0.N = G m c :=
  (dats m 0 c).arrAt_eq_of_cover 2 (G m c) (fun t _ => cut_after_2 m c t) (Blocks.cover2_loc c)

/-- The run with the result named: the result array ends at `G`, the arguments as launched. -/
theorem run_value : θ_run defs (onTc (τ := τ) (main (F := Ideal))) ⟨m, fun _ => 0, ρ⟩ (fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 2).trans (final_out m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end Cert.KernelIdeal.Run

end
-- ==== Proof.RefMath.lean ====
/-
  The reference computes the specified function.

  Read one operation at a time, the reference squares the features, sums each row's squares from zero, takes the square
  root, takes the larger of the threshold and that root, divides every feature entry by its row's value, and contracts the
  quotient with the memory over the last axis of both, part by part.  Entry (k, b, n) of its result is therefore the
  similarity of feature row (k, b) with memory row (k, n): a sum started from zero is the sum, and the maximum does not
  depend on the order of its two arguments.
-/
import proofs.«123891_g58102317581049_cont_9to1_m_374_11_alg».proof.Proof.Gen.ReferenceIdeal.Read
import proofs.«123891_g58102317581049_cont_9to1_m_374_11_alg».proof.Proof.Spec

noncomputable section

open scoped BigOperators

namespace Cert.RefMath

open Idealize.ShloMosaic Idealize.ShloMosaic.ValueIdx Cert.ReferenceIdeal Cert.ReferenceIdeal.Read

/-- The sum of squares of feature row (k, b): the reference's sum starts from the zero word, which adds nothing. -/
theorem sumsq_apply (x0 : (⟨S6x64x128, .f32⟩ : BufTy).Contents (Elt Ideal)) (k : Fin 6) (b : Fin 64) :
    val_main_call0_v1 (F := Ideal) x0 (ix2 k b) = ∑ d : Fin 128, x0 (ix3 k b d) * x0 (ix3 k b d) := by
  rw [val_main_call0_v1_apply, val_main_call0_cst_apply]
  show Ideal.ofBits .f32 0x00000000#32 + _ = _
  rw [Ideal.ofBits_zero_f32, zero_add]
  refine Finset.sum_congr rfl fun d _ => ?_
  have e : idx_main_call0_v1 (ix2 k b) d = ix3 k b d := funext fun a => Fin.ext (by
    match a with
    | ⟨0, _⟩ => rfl
    | ⟨1, _⟩ => rfl
    | ⟨2, _⟩ => rfl)
  rw [e]
  rfl

/-- The divisor of feature row (k, b): the larger of the row's Euclidean norm and the threshold. -/
theorem divisor_apply (x0 : (⟨S6x64x128, .f32⟩ : BufTy).Contents (Elt Ideal)) (k : Fin 6) (b : Fin 64) (u : Fin 1) :
    val_main_v1 (F := Ideal) x0 (ix3 k b u) = Cert.Spec.rowDiv fun d => x0 (ix3 k b d) := by
  have e : idx_main_call0_v2 (ix3 k b u) = ix2 k b := funext fun a => Fin.ext (by
    match a with
    | ⟨0, _⟩ => rfl
    | ⟨1, _⟩ => rfl)
  rw [val_main_v1_apply, val_main_call1_v1_apply, val_main_call1_v0_apply, val_main_cst_apply, val_main_v0_apply,
    val_main_call0_v2_apply, e, sumsq_apply]
  exact max_comm _ _

/-- The reference's result is the specified similarity, entry by entry. -/
theorem ref_eq_sim (x0 : (⟨S6x64x128, .f32⟩ : BufTy).Contents (Elt Ideal))
    (x1 : (⟨S6x100000x128, .f32⟩ : BufTy).Contents (Elt Ideal)) :
    val_main_v4 (F := Ideal) x0 x1 = Cert.Spec.sim x0 x1 := by
  funext i
  obtain ⟨k, b, n, rfl⟩ : ∃ (k : Fin 6) (b : Fin 64) (n : Fin 100000), i = ix3 k b n := ⟨i 0, i 1, i 2, eq_ix3 i⟩
  rw [val_main_v4_apply]
  show _ = ∑ d : Fin 128, Ideal.div (x0 (ix3 k b d)) (Cert.Spec.rowDiv fun d' => x0 (ix3 k b d')) * x1 (ix3 k n d)
  refine Finset.sum_congr rfl fun d _ => ?_
  have el : lidx_main_v4 (ix3 k b n) d = ix3 k b d := funext fun a => Fin.ext (by
    match a with
    | ⟨0, _⟩ => rfl
    | ⟨1, _⟩ => rfl
    | ⟨2, _⟩ => rfl)
  have er : ridx_main_v4 (ix3 k b n) d = ix3 k n d := funext fun a => Fin.ext (by
    match a with
    | ⟨0, _⟩ => rfl
    | ⟨1, _⟩ => rfl
    | ⟨2, _⟩ => rfl)
  have eu : idx_main_v2 (ix3 k b d) = ix3 k b (0 : Fin 1) := funext fun a => Fin.ext (by
    match a with
    | ⟨0, _⟩ => rfl
    | ⟨1, _⟩ => rfl
    | ⟨2, _⟩ => rfl)
  rw [el, er, val_main_v3_apply, val_main_v2_apply, eu, divisor_apply]
  rfl

end Cert.RefMath

end
-- ==== Proof.lean ====
/-
  The kernel and its reference compute one function on the extended reals.

  For each of six parts the kernel divides every feature row (64 rows of 128 entries) by the larger of its Euclidean norm and
  a threshold, and multiplies the result with the part's memory (100000 rows of 128 entries), tile by tile (three tiles of
  33408 rows, the last one cut at the memory's end): entry (k, b, n) of the result is Σ_d f(k,b,d) / max(‖f(k,b,·)‖, ε) · mem(k,n,d).
  The reference forms the same quotient and contracts it with the whole memory at once. On the extended reals a narrowing of
  the format is the identity, a sum does not depend on its tiling or on a zero starting value, and the maximum does not depend
  on the order of its arguments — so no hypothesis on the inputs is used. Proof/Spec.lean states the function, Proof/RefMath.lean
  shows the reference computes it, Proof/PayloadMath.lean reads the kernel's two stored values at an entry,
  Proof/IdealBlocks.lean says which array entries each grid point's blocks reach, Proof/IdealBody.lean and Proof/IdealRun.lean
  run the idealized kernel and name its result, and Proof/BitsBody.lean and Proof/BitsFrame.lean give the word-level kernel's
  frame. The idealization rewrote no operation, so there is nothing for it to preserve beyond the text itself.
-/
import proofs.«123891_g58102317581049_cont_9to1_m_374_11_alg».proof.Defs
import proofs.«123891_g58102317581049_cont_9to1_m_374_11_alg».proof.Proof.Gen.Kernel
import proofs.«123891_g58102317581049_cont_9to1_m_374_11_alg».proof.Proof.Gen.KernelIdeal
import proofs.«123891_g58102317581049_cont_9to1_m_374_11_alg».proof.Proof.Gen.ReferenceIdeal
import proofs.«123891_g58102317581049_cont_9to1_m_374_11_alg».proof.Proof.Gen.Pre_finite_inputs
import proofs.«123891_g58102317581049_cont_9to1_m_374_11_alg».proof.Proof.Gen.ReferenceIdeal.Run
import proofs.«123891_g58102317581049_cont_9to1_m_374_11_alg».proof.Proof.Gen.ReferenceIdeal.Read
import proofs.«123891_g58102317581049_cont_9to1_m_374_11_alg».proof.Proof.BitsFrame
import proofs.«123891_g58102317581049_cont_9to1_m_374_11_alg».proof.Proof.IdealRun
import proofs.«123891_g58102317581049_cont_9to1_m_374_11_alg».proof.Proof.RefMath
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Run.frame (F := Bits) m ρ

/-- The idealized kernel runs and leaves its arguments as launched: its run with the result dropped. -/
theorem frame_ki : Cert.frame_KernelIdeal := fun m ρ _ =>
  (θ_run Cert.KernelIdeal.defs _ _).mono (fun _ h c => (h c).2) (Cert.KernelIdeal.Run.run_value m ρ)

/-- The idealized reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From arguments that agree, both idealized programs end with the similarities of the features and the memory. -/
theorem algebraic : Cert.algebraic_KernelIdeal_ReferenceIdeal := by
  intro m ρ m' ρ' _ hagree
  refine ⟨fun c => Cert.KernelIdeal.Run.G m c, Cert.KernelIdeal.Run.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.RefMath.ref_eq_sim, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
